-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x24 : Shape := ⟨2, ![2000000, 24]⟩
abbrev S_ : Shape := ⟨0, ![]⟩

class Facts : Prop where
  bcast_S_S2000000x24 : S_.BroadcastsInDim S2000000x24 (![] : Fin 0 → Fin S2000000x24.rank)
  reducesTo_S2000000x24_S_d0_1 : S2000000x24.ReducesTo [0, 1] S_
  h_S_ : 0 < S_.numel

variable [Facts]

def fn {F : FTy → Type} [FloatOps F] (main_arg0 : FVec F S2000000x24 .f32) (main_arg1 : FVec F S2000000x24 .f32) : IVec S_ 1 :=
  let main_v0 : FVec F S2000000x24 .f32 := Host.absf main_arg0
  let main_cst : FVec F S_ .f32 := constant S_ .f32 0x7F800000#32
  let main_v1 : FVec F S2000000x24 .f32 := broadcastInDim S2000000x24 ![] bcast_S_S2000000x24 main_cst
  let main_v2 : IVec S2000000x24 1 := cmpf .olt main_v0 main_v1
  let main_c : IVec S_ 1 := constantI S_ 1 1#1
  let main_v3 : IVec S_ 1 := (fun x v => Host.reduce IntOp.andi x v reducesTo_S2000000x24_S_d0_1 h_S_) main_v2 main_c
  let main_v4 : FVec F S2000000x24 .f32 := Host.absf main_arg1
  let main_cst_0 : FVec F S_ .f32 := constant S_ .f32 0x7F800000#32
  let main_v5 : FVec F S2000000x24 .f32 := broadcastInDim S2000000x24 ![] bcast_S_S2000000x24 main_cst_0
  let main_v6 : IVec S2000000x24 1 := cmpf .olt main_v4 main_v5
  let main_c_1 : IVec S_ 1 := constantI S_ 1 1#1
  let main_v7 : IVec S_ 1 := (fun x v => Host.reduce IntOp.andi x v reducesTo_S2000000x24_S_d0_1 h_S_) main_v6 main_c_1
  let main_v8 : IVec S_ 1 := andi main_v3 main_v7
  main_v8
-- ==== Kernel.lean ====
abbrev S2000000x24 : Shape := ⟨2, ![2000000, 24]⟩
abbrev S2000000x4 : Shape := ⟨2, ![2000000, 4]⟩
abbrev S50000x24 : Shape := ⟨2, ![50000, 24]⟩
abbrev S50000x4 : Shape := ⟨2, ![50000, 4]⟩
abbrev S50000x3 : Shape := ⟨2, ![50000, 3]⟩
abbrev S50000 : Shape := ⟨1, ![50000]⟩
abbrev S50000x5 : Shape := ⟨2, ![50000, 5]⟩
abbrev S50000x7 : Shape := ⟨2, ![50000, 7]⟩
abbrev S50000x9 : Shape := ⟨2, ![50000, 9]⟩
abbrev S50000x1 : Shape := ⟨2, ![50000, 1]⟩

abbrev nBuf : Space → Nat
  | .hbm => 3
  | .vmem => 6
  | .smem => 0
  | _ => 0

abbrev bufTy : (tb : Table) → Fin (tcTables nBuf tb) → BufTy
  | .hbm, ⟨0, _⟩ => ⟨S2000000x24, .f32⟩
  | .hbm, ⟨1, _⟩ => ⟨S2000000x24, .f32⟩
  | .hbm, ⟨2, _⟩ => ⟨S2000000x4, .f32⟩
  | .local _ .vmem, ⟨0, _⟩ => ⟨S50000x24, .f32⟩
  | .local _ .vmem, ⟨1, _⟩ => ⟨S50000x24, .f32⟩
  | .local _ .vmem, ⟨2, _⟩ => ⟨S50000x24, .f32⟩
  | .local _ .vmem, ⟨3, _⟩ => ⟨S50000x24, .f32⟩
  | .local _ .vmem, ⟨4, _⟩ => ⟨S50000x4, .f32⟩
  | .local _ .vmem, ⟨5, _⟩ => ⟨S50000x4, .f32⟩
  | _, _ => ⟨S2000000x24, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S50000x24 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S50000x24 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S50000x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S50000x24_S50000x24_0_0 : ∀ a, (![0, 0] : Fin 2 → Nat) a + S50000x24.size a ≤ S50000x24.size a
  h_S50000x24 : 0 < S50000x24.numel
  slices_S50000x24_o0_0_S50000x3 : S50000x24.Slices ![0, 0] S50000x3
  reduces_S50000x3_S50000 : S50000x3.Reduces [1] S50000
  slices_S50000x24_o0_3_S50000x5 : S50000x24.Slices ![0, 3] S50000x5
  reduces_S50000x5_S50000 : S50000x5.Reduces [1] S50000
  slices_S50000x24_o0_8_S50000x7 : S50000x24.Slices ![0, 8] S50000x7
  reduces_S50000x7_S50000 : S50000x7.Reduces [1] S50000
  slices_S50000x24_o0_15_S50000x9 : S50000x24.Slices ![0, 15] S50000x9
  reduces_S50000x9_S50000 : S50000x9.Reduces [1] S50000
  shapeCasts_S50000_S50000x1 : S50000.ShapeCasts S50000x1
  concatenates_S50000x1_S50000x1_S50000x1_S50000x1_S50000x4_d1 : Shape.Concatenates [S50000x1, S50000x1, S50000x1, S50000x1] S50000x4 1
  inb_S50000x4_S50000x4_0_0 : ∀ a, (![0, 0] : Fin 2 → Nat) a + S50000x4.size a ≤ S50000x4.size a
  h_S50000x4 : 0 < S50000x4.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S50000x24.size a ≤ S2000000x24.size a
  hwx0_0 : ∀ i : grid0.Coords, EltTy.bits .f32 = 32 ∨ (Rect.block (s := S2000000x24) S50000x24.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S50000x24.size a ≤ S2000000x24.size a
  hwx0_1 : ∀ i : grid0.Coords, EltTy.bits .f32 = 32 ∨ (Rect.block (s := S2000000x24) S50000x24.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S50000x4.size a ≤ S2000000x4.size a
  hwx0_2 : ∀ i : grid0.Coords, EltTy.bits .f32 = 32 ∨ (Rect.block (s := S2000000x4) S50000x4.size (cc0_transform_2 i) (hinb0_2 i)).WholeWords (EltTy.packing .f32)

variable [Facts₀]

abbrev win0_0 : Pipeline.Window sig grid0 :=
  Pipeline.Window.ofSpec (Memref.whole main_arg0) S50000x24.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S50000x24.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S50000x4.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2000000x24 : Shape := ⟨2, ![2000000, 24]⟩
abbrev S2000000x3 : Shape := ⟨2, ![2000000, 3]⟩
abbrev S_ : Shape := ⟨0, ![]⟩
abbrev S2000000 : Shape := ⟨1, ![2000000]⟩
abbrev S2000000x5 : Shape := ⟨2, ![2000000, 5]⟩
abbrev S2000000x7 : Shape := ⟨2, ![2000000, 7]⟩
abbrev S2000000x9 : Shape := ⟨2, ![2000000, 9]⟩
abbrev S2000000x1 : Shape := ⟨2, ![2000000, 1]⟩
abbrev S2000000x4 : Shape := ⟨2, ![2000000, 4]⟩

abbrev nBuf : Space → Nat
  | .hbm => 39
  | .vmem => 0
  | .smem => 0
  | _ => 0

abbrev bufTy : (tb : Table) → Fin (tcTables nBuf tb) → BufTy
  | .hbm, ⟨0, _⟩ => ⟨S2000000x24, .f32⟩
  | .hbm, ⟨1, _⟩ => ⟨S2000000x24, .f32⟩
  | .hbm, ⟨2, _⟩ => ⟨S2000000x3, .f32⟩
  | .hbm, ⟨3, _⟩ => ⟨S2000000x3, .f32⟩
  | .hbm, ⟨4, _⟩ => ⟨S2000000x3, .f32⟩
  | .hbm, ⟨5, _⟩ => ⟨S_, .f32⟩
  | .hbm, ⟨6, _⟩ => ⟨S2000000, .f32⟩
  | .hbm, ⟨7, _⟩ => ⟨S_, .f32⟩
  | .hbm, ⟨8, _⟩ => ⟨S2000000, .f32⟩
  | .hbm, ⟨9, _⟩ => ⟨S2000000, .f32⟩
  | .hbm, ⟨10, _⟩ => ⟨S2000000x5, .f32⟩
  | .hbm, ⟨11, _⟩ => ⟨S2000000x5, .f32⟩
  | .hbm, ⟨12, _⟩ => ⟨S2000000x5, .f32⟩
  | .hbm, ⟨13, _⟩ => ⟨S_, .f32⟩
  | .hbm, ⟨14, _⟩ => ⟨S2000000, .f32⟩
  | .hbm, ⟨15, _⟩ => ⟨S_, .f32⟩
  | .hbm, ⟨16, _⟩ => ⟨S2000000, .f32⟩
  | .hbm, ⟨17, _⟩ => ⟨S2000000, .f32⟩
  | .hbm, ⟨18, _⟩ => ⟨S2000000x7, .f32⟩
  | .hbm, ⟨19, _⟩ => ⟨S2000000x7, .f32⟩
  | .hbm, ⟨20, _⟩ => ⟨S2000000x7, .f32⟩
  | .hbm, ⟨21, _⟩ => ⟨S_, .f32⟩
  | .hbm, ⟨22, _⟩ => ⟨S2000000, .f32⟩
  | .hbm, ⟨23, _⟩ => ⟨S_, .f32⟩
  | .hbm, ⟨24, _⟩ => ⟨S2000000, .f32⟩
  | .hbm, ⟨25, _⟩ => ⟨S2000000, .f32⟩
  | .hbm, ⟨26, _⟩ => ⟨S2000000x9, .f32⟩
  | .hbm, ⟨27, _⟩ => ⟨S2000000x9, .f32⟩
  | .hbm, ⟨28, _⟩ => ⟨S2000000x9, .f32⟩
  | .hbm, ⟨29, _⟩ => ⟨S_, .f32⟩
  | .hbm, ⟨30, _⟩ => ⟨S2000000, .f32⟩
  | .hbm, ⟨31, _⟩ => ⟨S_, .f32⟩
  | .hbm, ⟨32, _⟩ => ⟨S2000000, .f32⟩
  | .hbm, ⟨33, _⟩ => ⟨S2000000, .f32⟩
  | .hbm, ⟨34, _⟩ => ⟨S2000000x1, .f32⟩
  | .hbm, ⟨35, _⟩ => ⟨S2000000x1, .f32⟩
  | .hbm, ⟨36, _⟩ => ⟨S2000000x1, .f32⟩
  | .hbm, ⟨37, _⟩ => ⟨S2000000x1, .f32⟩
  | .hbm, ⟨38, _⟩ => ⟨S2000000x4, .f32⟩
  | _, _ => ⟨S2000000x24, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_5 : Ref sig .tc := ⟨.hbm, 29, rfl⟩
abbrev main_v21 : Ref sig .tc := ⟨.hbm, 30, rfl⟩
abbrev main_cst_6 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]

class Facts₀ : Prop where
  slices_S2000000x24_S2000000x3_0_0 : S2000000x24.Slices ![0, 0] S2000000x3
  reducesTo_S2000000x3_S2000000_d1 : S2000000x3.ReducesTo [1] S2000000
  h_S_ : 0 < S_.numel
  bcast_S_S2000000 : S_.BroadcastsInDim S2000000 (![] : Fin 0 → Fin S2000000.rank)
  slices_S2000000x24_S2000000x5_0_3 : S2000000x24.Slices ![0, 3] S2000000x5
  reducesTo_S2000000x5_S2000000_d1 : S2000000x5.ReducesTo [1] S2000000
  slices_S2000000x24_S2000000x7_0_8 : S2000000x24.Slices ![0, 8] S2000000x7
  reducesTo_S2000000x7_S2000000_d1 : S2000000x7.ReducesTo [1] S2000000
  slices_S2000000x24_S2000000x9_0_15 : S2000000x24.Slices ![0, 15] S2000000x9
  reducesTo_S2000000x9_S2000000_d1 : S2000000x9.ReducesTo [1] S2000000
  bcast_S2000000_S2000000x1_0 : S2000000.BroadcastsInDim S2000000x1 (![0] : Fin 1 → Fin S2000000x1.rank)
  concatenates_S2000000x1_S2000000x1_S2000000x1_S2000000x1_S2000000x4_d1 : Shape.Concatenates [S2000000x1, S2000000x1, S2000000x1, S2000000x1] S2000000x4 1

variable [Facts₀]

class Facts : Prop extends Facts₀ where

variable [Facts]
-- ==== Proof.RowInvariants.lean ====
/-
  The function of one pair of rows that both programs compute.

  A row of 24 features is four consecutive slices of widths 3, 5, 7, 9 — the components `m` of the degrees
  `l = 1, 2, 3, 4` — starting at columns 0, 3, 8, 15.  For two rows `x`, `y` the entry for degree `l` is the inner
  product of the two slices times a fixed scale `c_l`:
      out_l = (∑_{k < 2l+1} x[o_l + k] · y[o_l + k]) · c_l .
  The scales are kept as the binary words that both programs print: the same word stands on both sides, so its
  value is never needed.  An array of `R` such rows gives an array of `R` rows of four entries (`table`).
  Everything is stated on the extended reals; only commutative-monoid structure of `+` and the product are used,
  so no finiteness assumption is needed anywhere.
-/
import Idealize.ShloMosaic.PureOps.Ideal
import Idealize.ShloMosaic.Lib.ValueIdx

noncomputable section

namespace Cert.RowInvariants

open Idealize.ShloMosaic Idealize.ShloMosaic.ValueIdx
open scoped BigOperators

/-- The inner product of the slices of width `n` starting at column `o` of two rows. -/
def sliceDot (n o : Nat) (h : o + n ≤ 24) (x y : Fin 24 → EReal) : EReal :=
  ∑ k : Fin n, x ⟨o + k.val, Nat.lt_of_lt_of_le (Nat.add_lt_add_left k.isLt o) h⟩
    * y ⟨o + k.val, Nat.lt_of_lt_of_le (Nat.add_lt_add_left k.isLt o) h⟩

/-- The four scaled slice products of a pair of rows: entry `d` belongs to degree `d + 1`, whose slice has width
    `2 (d + 1) + 1`; the scale is the word printed for `1 / sqrt (2 (d + 1) + 1)`. -/
def deg (x y : Fin 24 → EReal) (d : Fin 4) : EReal :=
  match d with
  | ⟨0, _⟩ => sliceDot 3 0 (by decide) x y * Ideal.ofBits .f32 0x3F13CD3A#32
  | ⟨1, _⟩ => sliceDot 5 3 (by decide) x y * Ideal.ofBits .f32 0x3EE4F92E#32
  | ⟨2, _⟩ => sliceDot 7 8 (by decide) x y * Ideal.ofBits .f32 0x3EC1848F#32
  | ⟨3, _⟩ => sliceDot 9 15 (by decide) x y * Ideal.ofBits .f32 0x3EAAAAAB#32

/-- Row `r` of an array of `R` rows of 24 features. -/
def row {R : Nat} (X : (⟨2, ![R, 24]⟩ : Shape).Idx → EReal) (r : Fin R) : Fin 24 → EReal :=
  fun j => X (ix2 r j)

/-- The array of all rows' entries: at `(r, d)` the degree-`d` entry of rows `r` of the two arrays. -/
def table {R : Nat} (X Y : (⟨2, ![R, 24]⟩ : Shape).Idx → EReal) : (⟨2, ![R, 4]⟩ : Shape).Idx → EReal :=
  fun i => deg (row X (i 0)) (row Y (i 0)) (i 1)

theorem table_ix2 {R : Nat} (X Y : (⟨2, ![R, 24]⟩ : Shape).Idx → EReal) (r : Fin R) (d : Fin 4) :
    table X Y (ix2 r d) = deg (row X r) (row Y r) d := rfl

end Cert.RowInvariants

end
-- ==== Proof.KernelRows.lean ====
/-
  What the kernel's body leaves in one block of the output, read at an index.

  The body loads a block of 50000 rows of each input, and for each of the four degrees slices both blocks to the
  degree's columns, multiplies them entry by entry, sums every row over the slice's columns, scales the column of
  row sums by the degree's constant, and finally sets the four columns side by side.  Read at row `r`, column `d`,
  that is the degree-`d` entry of rows `r` of the two loaded blocks: `RowInvariants.table` of the blocks.
-/
import proofs.«158537_j20650202759258_1_alg».proof.Proof.Gen.KernelIdeal.Value
import proofs.«158537_j20650202759258_1_alg».proof.Proof.RowInvariants
import Idealize.ShloMosaic.Lib.ValueIdx
import Idealize.ShloMosaic.Lib.Pipeline.Value
import Idealize.ShloMosaic.PureOps.Ideal.Laws

noncomputable section

namespace Cert.KernelRows

open Idealize.ShloMosaic Idealize.ShloMosaic.ValueIdx Cert.KernelIdeal Cert.RowInvariants
open scoped BigOperators

/-- One column of the block before the columns are joined: the row sums of the product of the two slices of
    width `n` at column `o`, scaled by the constant with word `c`, recast from a vector of 50000 to a column
    `[50000, 1]`.  At the column's row `r` it is the slices' inner product of rows `r` times the constant: the
    cast keeps the row, the scaling and the product act entry by entry, the reduction over the slice's axis is the
    sum over its `n` columns, and column `k` of a slice is column `o + k` of the block. -/
theorem column_eq (n o : Nat) (hon : o + n ≤ 24) (c : BitVec 32) (P0 P1 : FVec Ideal S50000x24 .f32)
    (hs : S50000x24.Slices ![0, o] ⟨2, ![50000, n]⟩) (hr : Shape.Reduces ⟨2, ![50000, n]⟩ [1] S50000)
    (hφ : FKind.Formats .f32) (hacc : (0x00000000#32 : BitVec 32) = FKind.add.neutral .f32 hφ)
    (hc : S50000.ShapeCasts S50000x1) (j : S50000x1.Idx) (r : Fin 50000) (hj : (j 0).val = r.val) :
    shapeCast S50000x1 (mulf (multiReduction .add [1] S50000
        (mulf (extractStridedSlice ⟨2, ![50000, n]⟩ ![0, o] P0 hs) (extractStridedSlice ⟨2, ![50000, n]⟩ ![0, o] P1 hs))
        0x00000000#32 hr hφ hacc) (broadcast S50000 (Scalar.ofBits (F := Ideal) .f32 c))) hc j
      = sliceDot n o hon (row P0 r) (row P1 r) * Ideal.ofBits .f32 c := by
  refine (shapeCast_apply _ hc j (ix1 r) ?_).trans ?_
  · rw [Shape.rowMajor_val_one, Shape.rowMajor_val_two]
    have h1 : (j 1).val < 1 := (j 1).isLt
    show r.val = (j 0).val * 1 + (j 1).val
    omega
  · show multiReduction .add [1] S50000 _ 0x00000000#32 hr hφ hacc (ix1 r) * Ideal.ofBits .f32 c = _
    refine congrArg (· * Ideal.ofBits .f32 c) ?_
    refine (Ideal.multiReduction_add_single _ 0x00000000#32 hr hφ hacc (ix1 r)).trans ?_
    show ∑ k : Fin n, _ = ∑ k : Fin n, _
    refine Finset.sum_congr rfl fun k _ => ?_
    show extractStridedSlice ⟨2, ![50000, n]⟩ ![0, o] P0 hs (hr.lift (ix1 r) k)
        * extractStridedSlice ⟨2, ![50000, n]⟩ ![0, o] P1 hs (hr.lift (ix1 r) k) = _
    rw [extractStridedSlice_apply ![0, o] P0 hs (hr.lift (ix1 r) k)
        (ix2 r ⟨o + k.val, Nat.lt_of_lt_of_le (Nat.add_lt_add_left k.isLt o) hon⟩)
        (fun a => match a with
          | ⟨0, _⟩ => by show r.val = 0 + r.val; omega
          | ⟨1, _⟩ => rfl),
      extractStridedSlice_apply ![0, o] P1 hs (hr.lift (ix1 r) k)
        (ix2 r ⟨o + k.val, Nat.lt_of_lt_of_le (Nat.add_lt_add_left k.isLt o) hon⟩)
        (fun a => match a with
          | ⟨0, _⟩ => by show r.val = 0 + r.val; omega
          | ⟨1, _⟩ => rfl)]
    rfl

/-- The block the body leaves, as the generated value leg reads it (`Value.E2`: at `(r, d)` the `d`-th of the four
    joined columns at row `r`), is the table of the two loaded blocks. -/
theorem block_eq (P0 P1 : Vec Ideal S50000x24 .f32) (y : S50000x4.Idx) :
    Cert.KernelIdeal.Value.E2 (F := Ideal) P0 P1 y = table (R := 50000) P0 P1 y := by
  obtain ⟨r, d, rfl⟩ : ∃ (r : Fin 50000) (d : Fin 4), y = ix2 r d := ⟨y 0, y 1, eq_ix2 y⟩
  rw [table_ix2]
  match d with
  | ⟨0, _⟩ => exact column_eq 3 0 (by decide) 0x3F13CD3A#32 P0 P1 _ _ _ _ _ _ r rfl
  | ⟨1, _⟩ => exact column_eq 5 3 (by decide) 0x3EE4F92E#32 P0 P1 _ _ _ _ _ _ r rfl
  | ⟨2, _⟩ => exact column_eq 7 8 (by decide) 0x3EC1848F#32 P0 P1 _ _ _ _ _ _ r rfl
  | ⟨3, _⟩ => exact column_eq 9 15 (by decide) 0x3EAAAAAB#32 P0 P1 _ _ _ _ _ _ r rfl

end Cert.KernelRows

end
-- ==== Proof.KernelArray.lean ====
/-
  From blocks to the whole output array.

  The kernel runs over 40 grid points; point `t` loads rows `50000 t … 50000 t + 49999` of both inputs (all 24 columns)
  and writes back the same rows of the output (all 4 columns).  What it writes is the table of the two loaded
  blocks, and row `r` of a loaded block is row `50000 t + r` of the array, so the block written back is the same
  block of the table of the two whole arrays.  The 40 blocks cover every row (row `i` lies in block `i / 50000`),
  hence the output array ends as the table of the two argument arrays.
-/
import proofs.«158537_j20650202759258_1_alg».proof.Proof.Gen.KernelIdeal.Value
import proofs.«158537_j20650202759258_1_alg».proof.Proof.KernelRows
import Idealize.ShloMosaic.Lib.Pipeline.Value
import Idealize.ShloMosaic.Lib.ValueIdx

noncomputable section

namespace Cert.KernelArray

open Cert.KernelIdeal Cert.KernelIdeal.Gen Cert.KernelIdeal.Value Cert.RowInvariants
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- At every grid point the three windows sit at the same block of rows and at column block 0, and the block of
    rows is one of the 40. -/
theorem index_facts : ∀ t : Fin cfg0.N,
    win0_0.index t (0 : Fin 2) = win0_2.index t (0 : Fin 2) ∧ win0_0.index t (1 : Fin 2) = 0
    ∧ win0_1.index t (0 : Fin 2) = win0_2.index t (0 : Fin 2) ∧ win0_1.index t (1 : Fin 2) = 0
    ∧ win0_2.index t (1 : Fin 2) = 0 ∧ win0_2.index t (0 : Fin 2) ≤ 39 :=
  (by decide +kernel : ∀ t : Fin grid0.N, _)

/-- Every one of the 40 blocks of rows is some grid point's. -/
theorem index_onto : ∀ q : Fin 40, ∃ t : Fin cfg0.N, win0_2.index t = ![q.val, 0] :=
  (by decide +kernel : ∀ q : Fin 40, ∃ t : Fin grid0.N, win0_2.index t = ![q.val, 0])

/-- What the body leaves in the output's block, for any two loaded blocks: their table.  (The body loads each
    block whole and stores the joined columns whole.) -/
theorem body_block (x0 x1 : Vec Ideal S50000x24 .f32) :
    out0_2 (F := Ideal) x0 x1 = table (R := 50000) x0 x1 := by
  funext y
  unfold out0_2
  rw [Value.canon2_eq, Cert.KernelRows.block_eq]
  simp only [View.ld_unit_zero (S := S50000x24) zero_offsets]

/-- What point `t` writes back is block `t` of the table of the two arrays as the region finds them: row `r` of a
    block at block index `q` is row `50000 q + r` of its array, and the three windows share `q`. -/
theorem flushed_eq (c : Dev nD) (t : Fin cfg0.N) :
    (dats m 0 c).flushed 2 t
      = ((cfg0.win 2).blk t).view.read (Elt Ideal) (table (R := 2000000) (V m c main_arg0) (V m c main_arg1)) := by
  rw [Value.flushed2, body_block (iblk m c 0 t) (iblk m c 1 t)]
  obtain ⟨e00, e01, e10, e11, e21, hle⟩ := index_facts t
  refine funext fun (y : S50000x4.Idx) => ?_
  obtain ⟨r, d, rfl⟩ : ∃ (r : Fin 50000) (d : Fin 4), y = ix2 r d := ⟨y 0, y 1, eq_ix2 y⟩
  have hr : r.val < 50000 := r.isLt
  have hd : d.val < 4 := d.isLt
  show table (R := 50000) (iblk m c 0 t) (iblk m c 1 t) (ix2 r d)
      = table (R := 2000000) (V m c main_arg0) (V m c main_arg1) (((cfg0.win 2).blk t).view.emb (ix2 r d))
  have he : ((cfg0.win 2).blk t).view.emb (ix2 r d)
      = ix2 (⟨win0_2.index t (0 : Fin 2) * 50000 + r.val, by omega⟩ : Fin 2000000) d := by
    funext a; apply Fin.ext
    match a with
    | ⟨0, _⟩ => show win0_2.index t (0 : Fin 2) * 50000 + 1 * r.val = win0_2.index t (0 : Fin 2) * 50000 + r.val; omega
    | ⟨1, _⟩ => show win0_2.index t (1 : Fin 2) * 4 + 1 * d.val = d.val; omega
  have h0 : row (R := 50000) (iblk m c 0 t) r
      = row (R := 2000000) (V m c main_arg0) (⟨win0_2.index t (0 : Fin 2) * 50000 + r.val, by omega⟩ : Fin 2000000) := by
    funext j
    have hj : j.val < 24 := j.isLt
    show V m c main_arg0 (((cfg0.win 0).blk t).view.emb (ix2 r j)) = V m c main_arg0 (ix2 _ j)
    refine congrArg (V m c main_arg0) (funext fun a => Fin.ext ?_)
    match a with
    | ⟨0, _⟩ => show win0_0.index t (0 : Fin 2) * 50000 + 1 * r.val = win0_2.index t (0 : Fin 2) * 50000 + r.val; omega
    | ⟨1, _⟩ => show win0_0.index t (1 : Fin 2) * 24 + 1 * j.val = j.val; omega
  have h1 : row (R := 50000) (iblk m c 1 t) r
      = row (R := 2000000) (V m c main_arg1) (⟨win0_2.index t (0 : Fin 2) * 50000 + r.val, by omega⟩ : Fin 2000000) := by
    funext j
    have hj : j.val < 24 := j.isLt
    show V m c main_arg1 (((cfg0.win 1).blk t).view.emb (ix2 r j)) = V m c main_arg1 (ix2 _ j)
    refine congrArg (V m c main_arg1) (funext fun a => Fin.ext ?_)
    match a with
    | ⟨0, _⟩ => show win0_1.index t (0 : Fin 2) * 50000 + 1 * r.val = win0_2.index t (0 : Fin 2) * 50000 + r.val; omega
    | ⟨1, _⟩ => show win0_1.index t (1 : Fin 2) * 24 + 1 * j.val = j.val; omega
  rw [he, table_ix2, table_ix2, h0, h1]

/-- An index of the output array is in point `t`'s block iff each coordinate is in the block's range on its axis. -/
theorem mem_block (t : Fin cfg0.N) (i : S2000000x4.Idx) :
    i ∈ ((cfg0.win 2).blk t).view.set ↔ ∀ a : Fin 2, win0_2.index t a * S50000x4.size a ≤ (i a).val
      ∧ (i a).val < win0_2.index t a * S50000x4.size a + S50000x4.size a := by
  show i ∈ ((View.whole main_v0).slice (win0_2.rect t)).set ↔ _
  rw [View.set_slice_whole, Rect.mem_set_unit]
  exact Iff.rfl

/-- Every index of the output array lies in some point's block: row `i` in the block of rows `i / 50000`. -/
theorem cover (i : S2000000x4.Idx) :
    ∃ t : Fin cfg0.N, (cfg0.win 2).flush t = true ∧ i ∈ ((cfg0.win 2).blk t).view.set := by
  have hi0 : (i 0).val < 2000000 := (i 0).isLt
  have hi1 : (i 1).val < 4 := (i 1).isLt
  obtain ⟨t, ht⟩ := index_onto ⟨(i 0).val / 50000, by omega⟩
  have q0 : win0_2.index t (0 : Fin 2) = (i 0).val / 50000 := congrFun ht 0
  have q1 : win0_2.index t (1 : Fin 2) = 0 := congrFun ht 1
  refine ⟨t, flush0_2 t, ?_⟩
  rw [mem_block]
  intro a
  match a with
  | ⟨0, _⟩ =>
    show win0_2.index t (0 : Fin 2) * 50000 ≤ (i 0).val ∧ (i 0).val < win0_2.index t (0 : Fin 2) * 50000 + 50000
    omega
  | ⟨1, _⟩ =>
    show win0_2.index t (1 : Fin 2) * 4 ≤ (i 1).val ∧ (i 1).val < win0_2.index t (1 : Fin 2) * 4 + 4
    omega

/-- The output array after the run is the table of the two argument arrays. -/
theorem final (c : Dev nD) :
    (dats m 0 c).arrAt 2 cfg0.N
      = table (R := 2000000) (m ((c : Thread nD τ).loc main_arg0)) (m ((c : Thread nD τ).loc main_arg1)) :=
  (dats m 0 c).arrAt_eq_of_cover 2 _ (fun t _ => flushed_eq m c t) cover

/-- The kernel's run: it terminates with the output array at the table of the arguments, the arguments unchanged. -/
theorem run : θ_run defs (onTc (τ := τ) (main (F := Ideal))) ⟨m, fun _ => 0, ρ⟩ fun r => ∀ c : Dev nD,
      r.2.mem ((c : Thread nD τ).loc main_v0)
        = table (R := 2000000) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelArray

end
-- ==== Proof.ReferenceRows.lean ====
/-
  What the reference computes, read at an index.

  The reference slices both whole arrays to a degree's columns, multiplies them entry by entry, sums every row over the
  slice's columns starting from zero, scales the vector of row sums by the degree's constant, makes it a column, and
  joins the four columns.  Read at row `r`, column `d`, that is the degree-`d` entry of rows `r` of the two
  arrays: `RowInvariants.table` of the arrays.  The zero the sums start from is the extended real `0`, which
  `0 + s = s` removes; nothing else about the extended reals is used.
-/
import proofs.«158537_j20650202759258_1_alg».proof.Proof.Gen.ReferenceIdeal.Read
import proofs.«158537_j20650202759258_1_alg».proof.Proof.RowInvariants
import Idealize.ShloMosaic.Lib.ValueIdx
import Idealize.ShloMosaic.Lib.Pipeline.Value
import Idealize.ShloMosaic.PureOps.Ideal.Laws

noncomputable section

namespace Cert.ReferenceRows

open Idealize.ShloMosaic Idealize.ShloMosaic.ValueIdx Cert.ReferenceIdeal Cert.ReferenceIdeal.Read Cert.RowInvariants
open scoped BigOperators

/-- A sum of products of entries of the two arrays, taken at indices that are columns `o + k` of row `r`, is the
    slices' inner product of rows `r`. -/
theorem sum_rows (n o : Nat) (hon : o + n ≤ 24) (x0 x1 : FVec Ideal S2000000x24 .f32) (r : Fin 2000000)
    (f g : Fin n → S2000000x24.Idx)
    (hf : ∀ k : Fin n, f k = ix2 r ⟨o + k.val, Nat.lt_of_lt_of_le (Nat.add_lt_add_left k.isLt o) hon⟩)
    (hg : ∀ k : Fin n, g k = ix2 r ⟨o + k.val, Nat.lt_of_lt_of_le (Nat.add_lt_add_left k.isLt o) hon⟩) :
    (∑ k : Fin n, x0 (f k) * x1 (g k)) = sliceDot n o hon (row x0 r) (row x1 r) := by
  unfold sliceDot row
  exact Finset.sum_congr rfl fun k _ => by rw [hf k, hg k]

/-- Degree 1's column at row `r`: columns 0, 1, 2. -/
theorem col0 (x0 x1 : FVec Ideal S2000000x24 .f32) (r : Fin 2000000) :
    val_main_v24 (F := Ideal) x0 x1 (ix2 r (0 : Fin 1))
      = sliceDot 3 0 (by decide) (row x0 r) (row x1 r) * Ideal.ofBits .f32 0x3F13CD3A#32 := by
  rw [val_main_v24_apply, val_main_v5_apply, val_main_v3_apply, val_main_v4_apply, val_main_cst_0_apply, val_main_cst_apply]
  simp only [val_main_v2_apply, val_main_v0_apply, val_main_v1_apply, Ideal.mulf_def, Ideal.ofBits_def,
    Ideal.ofBits_zero_f32, zero_add]
  exact congrArg (· * Ideal.ofBits .f32 0x3F13CD3A#32) (sum_rows 3 0 (by decide) x0 x1 r _ _
    (fun k => funext fun a => Fin.ext (by match a with | ⟨0, _⟩ => rfl | ⟨1, _⟩ => show k.val = 0 + k.val; omega))
    (fun k => funext fun a => Fin.ext (by match a with | ⟨0, _⟩ => rfl | ⟨1, _⟩ => show k.val = 0 + k.val; omega)))

/-- Degree 2's column at row `r`: columns 3 to 7. -/
theorem col1 (x0 x1 : FVec Ideal S2000000x24 .f32) (r : Fin 2000000) :
    val_main_v25 (F := Ideal) x0 x1 (ix2 r (0 : Fin 1))
      = sliceDot 5 3 (by decide) (row x0 r) (row x1 r) * Ideal.ofBits .f32 0x3EE4F92E#32 := by
  rw [val_main_v25_apply, val_main_v11_apply, val_main_v9_apply, val_main_v10_apply, val_main_cst_2_apply, val_main_cst_1_apply]
  simp only [val_main_v8_apply, val_main_v6_apply, val_main_v7_apply, Ideal.mulf_def, Ideal.ofBits_def,
    Ideal.ofBits_zero_f32, zero_add]
  exact congrArg (· * Ideal.ofBits .f32 0x3EE4F92E#32) (sum_rows 5 3 (by decide) x0 x1 r _ _
    (fun k => funext fun a => Fin.ext (by match a with | ⟨0, _⟩ => rfl | ⟨1, _⟩ => rfl))
    (fun k => funext fun a => Fin.ext (by match a with | ⟨0, _⟩ => rfl | ⟨1, _⟩ => rfl)))

/-- Degree 3's column at row `r`: columns 8 to 14. -/
theorem col2 (x0 x1 : FVec Ideal S2000000x24 .f32) (r : Fin 2000000) :
    val_main_v26 (F := Ideal) x0 x1 (ix2 r (0 : Fin 1))
      = sliceDot 7 8 (by decide) (row x0 r) (row x1 r) * Ideal.ofBits .f32 0x3EC1848F#32 := by
  rw [val_main_v26_apply, val_main_v17_apply, val_main_v15_apply, val_main_v16_apply, val_main_cst_4_apply, val_main_cst_3_apply]
  simp only [val_main_v14_apply, val_main_v12_apply, val_main_v13_apply, Ideal.mulf_def, Ideal.ofBits_def,
    Ideal.ofBits_zero_f32, zero_add]
  exact congrArg (· * Ideal.ofBits .f32 0x3EC1848F#32) (sum_rows 7 8 (by decide) x0 x1 r _ _
    (fun k => funext fun a => Fin.ext (by match a with | ⟨0, _⟩ => rfl | ⟨1, _⟩ => rfl))
    (fun k => funext fun a => Fin.ext (by match a with | ⟨0, _⟩ => rfl | ⟨1, _⟩ => rfl)))

/-- Degree 4's column at row `r`: columns 15 to 23. -/
theorem col3 (x0 x1 : FVec Ideal S2000000x24 .f32) (r : Fin 2000000) :
    val_main_v27 (F := Ideal) x0 x1 (ix2 r (0 : Fin 1))
      = sliceDot 9 15 (by decide) (row x0 r) (row x1 r) * Ideal.ofBits .f32 0x3EAAAAAB#32 := by
  rw [val_main_v27_apply, val_main_v23_apply, val_main_v21_apply, val_main_v22_apply, val_main_cst_6_apply, val_main_cst_5_apply]
  simp only [val_main_v20_apply, val_main_v18_apply, val_main_v19_apply, Ideal.mulf_def, Ideal.ofBits_def,
    Ideal.ofBits_zero_f32, zero_add]
  exact congrArg (· * Ideal.ofBits .f32 0x3EAAAAAB#32) (sum_rows 9 15 (by decide) x0 x1 r _ _
    (fun k => funext fun a => Fin.ext (by match a with | ⟨0, _⟩ => rfl | ⟨1, _⟩ => rfl))
    (fun k => funext fun a => Fin.ext (by match a with | ⟨0, _⟩ => rfl | ⟨1, _⟩ => rfl)))

/-- The reference's four columns, by number. -/
def cols (x0 x1 : FVec Ideal S2000000x24 .f32) : Fin 4 → (S2000000x1.Idx → EReal) := fun n => match n with
  | ⟨0, _⟩ => val_main_v24 (F := Ideal) x0 x1
  | ⟨1, _⟩ => val_main_v25 (F := Ideal) x0 x1
  | ⟨2, _⟩ => val_main_v26 (F := Ideal) x0 x1
  | ⟨3, _⟩ => val_main_v27 (F := Ideal) x0 x1

/-- The reference's result is the table of its two arguments: the joined array at `(r, d)` is column `d` at row
    `r`, and each column is its degree's scaled slice product. -/
theorem result_eq (x0 x1 : FVec Ideal S2000000x24 .f32) :
    val_main_v28 (F := Ideal) x0 x1 = table (R := 2000000) x0 x1 := by
  funext i
  obtain ⟨r, d, rfl⟩ : ∃ (r : Fin 2000000) (d : Fin 4), i = ix2 r d := ⟨i 0, i 1, eq_ix2 i⟩
  rw [table_ix2]
  unfold val_main_v28
  show concatenate S2000000x4 1 (List.ofFn fun n : Fin 4 => (⟨S2000000x1, cols x0 x1 n⟩ : (s : Shape) × (s.Idx → _))) _ (ix2 r d) = _
  refine (concatenate_ofFn_apply (t := S2000000x4) (s₁ := S2000000x1) (1 : Fin 2) (cols x0 x1) _ rfl 1 rfl (ix2 r d) d
    (by show d.val / 1 = d.val; omega) (ix2 r (0 : Fin 1)) (by show 0 = d.val % 1; omega)
    (fun b hb => by match b with | ⟨0, _⟩ => rfl | ⟨1, _⟩ => exact absurd rfl hb)).trans ?_
  match d with
  | ⟨0, _⟩ => exact col0 x0 x1 r
  | ⟨1, _⟩ => exact col1 x0 x1 r
  | ⟨2, _⟩ => exact col2 x0 x1 r
  | ⟨3, _⟩ => exact col3 x0 x1 r

end Cert.ReferenceRows

end
-- ==== Proof.lean ====
/-
  Per-degree inner products of two arrays of rows: the kernel against its reference.

  Both programs take two arrays of 2000000 rows of 24 features.  A row is four consecutive slices of widths 3, 5, 7, 9
  (columns 0–2, 3–7, 8–14, 15–23); for each row `r` and each slice `d` the result holds
      out[r, d] = (∑_k x[r, o_d + k] · y[r, o_d + k]) · c_d ,
  where `c_d` is one binary constant per slice, the same word in both programs.

  * The reference does this on the whole arrays: slice, multiply, sum each row from zero, scale, join the four columns
    (`ReferenceRows.result_eq`, over the generated run and its read-at-an-index lemmas).
  * The kernel does it block by block, 40 blocks of 50000 rows: each grid point loads its block of rows of both
    arrays, forms the same four columns for the block (`KernelRows.block_eq`) and writes the block of the result
    back; the blocks cover the result, so the whole array ends at the same function of the arguments
    (`KernelArray.run`, over the generated frame run and block-wise value leg).
  Both sides are literally one function (`RowInvariants.table`), so the two results agree on all extended reals:
  the only facts about the extended reals used are `0 + s = s` and that a sum over a finite index set does not depend
  on how it is enumerated.  The precondition (finite inputs) is never opened.

  The three frames are the generated frame proofs (the reference's is its generated run with the result dropped), and
  nothing was rewritten between the kernel and its idealization, so that conjunct is `True`.
-/
import proofs.«158537_j20650202759258_1_alg».proof.Defs
import proofs.«158537_j20650202759258_1_alg».proof.Proof.Gen.Kernel
import proofs.«158537_j20650202759258_1_alg».proof.Proof.Gen.Kernel.Skeleton
import proofs.«158537_j20650202759258_1_alg».proof.Proof.Gen.Kernel.Launch
import proofs.«158537_j20650202759258_1_alg».proof.Proof.Gen.Kernel.Points
import proofs.«158537_j20650202759258_1_alg».proof.Proof.Gen.Kernel.Frame
import proofs.«158537_j20650202759258_1_alg».proof.Proof.Gen.KernelIdeal
import proofs.«158537_j20650202759258_1_alg».proof.Proof.Gen.KernelIdeal.Skeleton
import proofs.«158537_j20650202759258_1_alg».proof.Proof.Gen.KernelIdeal.Launch
import proofs.«158537_j20650202759258_1_alg».proof.Proof.Gen.KernelIdeal.Points
import proofs.«158537_j20650202759258_1_alg».proof.Proof.Gen.KernelIdeal.Frame
import proofs.«158537_j20650202759258_1_alg».proof.Proof.Gen.ReferenceIdeal
import proofs.«158537_j20650202759258_1_alg».proof.Proof.Gen.Pre_finite_inputs
import proofs.«158537_j20650202759258_1_alg».proof.Proof.Gen.KernelIdeal.Value
import proofs.«158537_j20650202759258_1_alg».proof.Proof.Gen.ReferenceIdeal.Run
import proofs.«158537_j20650202759258_1_alg».proof.Proof.Gen.ReferenceIdeal.Read
import proofs.«158537_j20650202759258_1_alg».proof.Proof.RowInvariants
import proofs.«158537_j20650202759258_1_alg».proof.Proof.KernelRows
import proofs.«158537_j20650202759258_1_alg».proof.Proof.KernelArray
import proofs.«158537_j20650202759258_1_alg».proof.Proof.ReferenceRows
import Idealize.ShloMosaic.Adequacy
import Idealize.ShloMosaic.Init

noncomputable section

namespace Cert.Proof

open Idealize.ShloMosaic Idealize.ShloMosaic.TcCoe Idealize.SL.Sem Cert.RowInvariants

/-- The kernel as printed runs, terminates without a fault and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the statement about the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten for the idealization. -/
theorem preserves : Cert.preserves_Kernel_KernelIdeal := trivial

/-- From memories that agree on the two arguments, the kernel's result array and the reference's both end at the
    table of the arguments' rows. -/
theorem algebraic : Cert.algebraic_KernelIdeal_ReferenceIdeal := by
  intro m ρ m' ρ' _ hagree
  refine ⟨_, Cert.KernelArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq, Cert.ReferenceRows.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
